-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S512x8192 : Shape := ⟨2, ![512, 8192]⟩
abbrev S8192x8192 : Shape := ⟨2, ![8192, 8192]⟩
abbrev S4096x512 : Shape := ⟨2, ![4096, 512]⟩
abbrev S512x512 : Shape := ⟨2, ![512, 512]⟩
abbrev S4096x1 : Shape := ⟨2, ![4096, 1]⟩
abbrev S1x512 : Shape := ⟨2, ![1, 512]⟩

abbrev nBuf : Space → Nat
  | .hbm => 15
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x512, .bf16⟩
  | .hbm, ⟨12, _⟩ => ⟨S8192x512, .bf16⟩
  | .hbm, ⟨13, _⟩ => ⟨S512x8192, .bf16⟩
  | .hbm, ⟨14, _⟩ => ⟨S8192x8192, .f32⟩
  | .local _ .vmem, ⟨0, _⟩ => ⟨S4096x512, .bf16⟩
  | .local _ .vmem, ⟨1, _⟩ => ⟨S4096x512, .bf16⟩
  | .local _ .vmem, ⟨2, _⟩ => ⟨S512x512, .bf16⟩
  | .local _ .vmem, ⟨3, _⟩ => ⟨S512x512, .bf16⟩
  | .local _ .vmem, ⟨4, _⟩ => ⟨S4096x1, .f32⟩
  | .local _ .vmem, ⟨5, _⟩ => ⟨S4096x1, .f32⟩
  | .local _ .vmem, ⟨6, _⟩ => ⟨S1x512, .f32⟩
  | .local _ .vmem, ⟨7, _⟩ => ⟨S1x512, .f32⟩
  | .local _ .vmem, ⟨8, _⟩ => ⟨S4096x512, .f32⟩
  | .local _ .vmem, ⟨9, _⟩ => ⟨S4096x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  transposes_S8192x512_S512x8192_1_0 : S8192x512.Transposes [1, 0] S512x8192
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S4096x1_S4096x512 : S4096x1.Broadcasts S4096x512
  broadcasts_S1x512_S4096x512 : S1x512.Broadcasts S4096x512
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S8192x512.size a
  hwx0_0 : ∀ i : grid0.Coords, EltTy.bits .bf16 = 32 ∨ (Rect.block (s := S8192x512) S4096x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x8192.size a
  hwx0_1 : ∀ i : grid0.Coords, EltTy.bits .bf16 = 32 ∨ (Rect.block (s := S512x8192) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S8192x1.size a
  hwx0_2 : ∀ i : grid0.Coords, EltTy.bits .f32 = 32 ∨ (Rect.block (s := S8192x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S8192x8192.size a
  hwx0_4 : ∀ i : grid0.Coords, EltTy.bits .f32 = 32 ∨ (Rect.block (s := S8192x8192) S4096x512.size (cc0_transform_4 i) (hinb0_4 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_v7) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.Spec.lean ====
/-
  The table of squared Euclidean distances between the 8192 points of one set and the 8192 points of another, each point
  512 coordinates, as ONE function of the two sets over the extended reals:

      dist s t (a, b) = (|s a|² + |t b|²) - 2 · ⟨s a, t b⟩,

  where |x a|² is the float zero plus the sum over the 512 coordinates of the squares, and ⟨s a, t b⟩ the sum over the
  coordinates of the products. The two literals (the zero a sum starts from, the factor two) stay the words the programs
  print: the same word on both sides is never evaluated.
-/
import Idealize.ShloMosaic.PureOps.Ideal
import Idealize.ShloMosaic.PureOps.Ideal.Laws
import Idealize.ShloMosaic.Lib.ValueIdx

noncomputable section

open scoped BigOperators

namespace Cert.PairDist

open Idealize.ShloMosaic Idealize.ShloMosaic.ValueIdx

/-- A set of 8192 points of 512 coordinates each. -/
abbrev Pts : Shape := ⟨2, ![8192, 512]⟩
/-- The table of distances: one entry per pair of points. -/
abbrev Tab : Shape := ⟨2, ![8192, 8192]⟩

/-- The squared length of point `a` of `x`: the float zero plus the sum of its coordinates' squares. -/
def sqNorm (x : Pts.Idx → EReal) (a : Fin 8192) : EReal :=
  Ideal.ofBits .f32 0x00000000#32 + ∑ k : Fin 512, x (ix2 a k) * x (ix2 a k)

/-- The inner product of point `a` of `s` with point `b` of `t`. -/
def inner (s t : Pts.Idx → EReal) (a b : Fin 8192) : EReal :=
  ∑ k : Fin 512, s (ix2 a k) * t (ix2 b k)

/-- The squared distance from point `a` of `s` to point `b` of `t`, by the polarization identity's right-hand side,
    grouped as both programs group it: the two squared lengths added first, twice the inner product subtracted. -/
def distAt (s t : Pts.Idx → EReal) (a b : Fin 8192) : EReal :=
  (sqNorm s a + sqNorm t b) - Ideal.ofBits .f32 0x40000000#32 * inner s t a b

/-- The whole table. -/
def dist (s t : Pts.Idx → EReal) : Tab.Idx → EReal := fun i => distAt s t (i 0) (i 1)

theorem dist_ix2 (s t : Pts.Idx → EReal) (a b : Fin 8192) : dist s t (ix2 a b) = distAt s t a b := rfl

end Cert.PairDist

end
-- ==== Proof.RefIsDist.lean ====
/-
  The reference's result is the table of squared distances. Read one operation at a time at an entry (a, b): the row sums
  of squares of the two point sets are broadcast along the other axis and added, the product of the first set with the
  transpose of the second is one contraction over the 512 coordinates, doubled and subtracted. Nothing is rearranged: the
  entry is the specification's term, so the proof only identifies the operand indices and unfolds.
-/
import proofs.«140725_j20959440404484_2_alg».proof.Proof.Gen.ReferenceIdeal.Read
import proofs.«140725_j20959440404484_2_alg».proof.Proof.Spec

noncomputable section

open scoped BigOperators

namespace Cert.ReferenceIdeal.RefValue

open Cert.ReferenceIdeal Cert.ReferenceIdeal.Gen Cert.ReferenceIdeal.Read Cert.PairDist
open Idealize.ShloMosaic Idealize.ShloMosaic.ValueIdx

/-- Entry (a, b) of the first broadcast reads row `a`'s sum, whose terms are at (a, k). -/
theorem idx_rows (a b : Fin 8192) (k : Fin 512) :
    idx_main_v1 (idx_main_v5 (idx_main_v7 (ix2 a b))) k = ix2 a k :=
  funext fun d => Fin.ext (by match d with | ⟨0, _⟩ => rfl | ⟨1, _⟩ => rfl)

/-- Entry (a, b) of the second broadcast reads row `b`'s sum of the other set, whose terms are at (b, k). -/
theorem idx_cols (a b : Fin 8192) (k : Fin 512) :
    idx_main_v3 (idx_main_v6 (idx_main_v8 (ix2 a b))) k = ix2 b k :=
  funext fun d => Fin.ext (by match d with | ⟨0, _⟩ => rfl | ⟨1, _⟩ => rfl)

/-- The contraction's left factor at (a, b), k is the first set at (a, k) … -/
theorem idx_lhs (a b : Fin 8192) (k : Fin 512) : lidx_main_v4 (ix2 a b) k = ix2 a k :=
  funext fun d => Fin.ext (by match d with | ⟨0, _⟩ => rfl | ⟨1, _⟩ => rfl)

/-- … and its right factor the second set at (b, k). -/
theorem idx_rhs (a b : Fin 8192) (k : Fin 512) : ridx_main_v4 (ix2 a b) k = ix2 b k :=
  funext fun d => Fin.ext (by match d with | ⟨0, _⟩ => rfl | ⟨1, _⟩ => rfl)

/-- The reference's last stage is the table of squared distances of its two arguments. -/
theorem ref_eq_dist (x0 x1 : (⟨S8192x512, .f32⟩ : BufTy).Contents (Elt Ideal)) :
    val_main_v12 (F := Ideal) x0 x1 = dist x0 x1 := by
  funext i
  obtain ⟨a, b, rfl⟩ : ∃ (a b : Fin 8192), i = ix2 a b := ⟨i 0, i 1, eq_ix2 i⟩
  rw [val_main_v12_apply, val_main_v9_apply, val_main_v7_apply, val_main_v5_apply, val_main_v1_apply,
    val_main_v8_apply, val_main_v6_apply, val_main_v3_apply, val_main_v11_apply, val_main_v10_apply,
    val_main_v4_apply]
  simp only [idx_rows, idx_cols, idx_lhs, idx_rhs, val_main_v0_apply, val_main_v2_apply, val_main_cst_apply,
    val_main_cst_0_apply, val_main_cst_1_apply]
  rfl

end Cert.ReferenceIdeal.RefValue

end
-- ==== Proof.Payload.lean ====
/-
  What the kernel's body stores, read at one entry (p, q) of its 4096 × 512 output block: from its four loaded blocks — 4096 points
  of the first set (rows), 512 points of the second set laid out as columns, the rows' squared lengths as a column and the
  columns' squared lengths as a row — it is

      (len₁ p + len₂ q) - 2 · ∑ k, rows (p, k) · cols (k, q).

  The product of the two blocks accumulates into the zero block, so it is the plain contraction over the 512 coordinates; the
  column of lengths is spread along the rows and the row of lengths along the columns; the shape casts are of a shape to itself.
-/
import proofs.«140725_j20959440404484_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BodyValue

open Cert.KernelIdeal Cert.KernelIdeal.Gen
open Idealize.ShloMosaic Idealize.ShloMosaic.ValueIdx

/-! ## The block product's operand indices -/

/-- The left factor's row is the output's row … -/
theorem lhs_row (i : S4096x512.Idx) (r : dot_S4096x512_S512x512_S4096x512_1_0_0_1_n_n.contr.Idx) :
    (dot_S4096x512_S512x512_S4096x512_1_0_0_1_n_n.lhsIdx i r 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
/-- … and its column the contracted coordinate. -/
theorem lhs_k (i : S4096x512.Idx) (r : dot_S4096x512_S512x512_S4096x512_1_0_0_1_n_n.contr.Idx) :
    (dot_S4096x512_S512x512_S4096x512_1_0_0_1_n_n.lhsIdx i r 1).val = (r ⟨0, by decide⟩).val :=
  dot_S4096x512_S512x512_S4096x512_1_0_0_1_n_n.lhsIdx_val_of_single rfl i r
/-- The right factor's row is the contracted coordinate … -/
theorem rhs_k (i : S4096x512.Idx) (r : dot_S4096x512_S512x512_S4096x512_1_0_0_1_n_n.contr.Idx) :
    (dot_S4096x512_S512x512_S4096x512_1_0_0_1_n_n.rhsIdx i r 0).val = (r ⟨0, by decide⟩).val :=
  dot_S4096x512_S512x512_S4096x512_1_0_0_1_n_n.rhsIdx_val_of_single rfl i r
/-- … and its column the output's column. -/
theorem rhs_col (i : S4096x512.Idx) (r : dot_S4096x512_S512x512_S4096x512_1_0_0_1_n_n.contr.Idx) :
    (dot_S4096x512_S512x512_S4096x512_1_0_0_1_n_n.rhsIdx i r 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- The block product into the zero block, at (p, q): the sum over the 512 coordinates of rows (p, k) times cols (k, q). -/
theorem matmul_at (x0 : FVec Ideal S4096x512 .bf16) (x1 : FVec Ideal S512x512 .bf16) (p : Fin 4096) (q : Fin 512) :
    matmul (F := Ideal) dot_S4096x512_S512x512_S4096x512_1_0_0_1_n_n none x0 x1 (constant S4096x512 .f32 0x00000000#32) (ix2 p q)
      = ∑ k : Fin 512, x0 (ix2 p k) * x1 (ix2 k q) := by
  simp only [matmul]
  rw [Ideal.matmul_constant_zero_apply, ← Equiv.sum_comp (contrEquiv1 dot_S4096x512_S512x512_S4096x512_1_0_0_1_n_n 512 rfl rfl).symm]
  refine Finset.sum_congr rfl fun k _ => ?_
  have hk := contrEquiv1_symm_val dot_S4096x512_S512x512_S4096x512_1_0_0_1_n_n 512 rfl rfl k
  have el : dot_S4096x512_S512x512_S4096x512_1_0_0_1_n_n.lhsIdx (ix2 p q) ((contrEquiv1 dot_S4096x512_S512x512_S4096x512_1_0_0_1_n_n 512 rfl rfl).symm k) = ix2 p k := funext fun a => Fin.ext (by
    match a with
    | ⟨0, _⟩ => exact lhs_row _ _
    | ⟨1, _⟩ => exact (lhs_k _ _).trans hk)
  have er : dot_S4096x512_S512x512_S4096x512_1_0_0_1_n_n.rhsIdx (ix2 p q) ((contrEquiv1 dot_S4096x512_S512x512_S4096x512_1_0_0_1_n_n 512 rfl rfl).symm k) = ix2 k q := funext fun a => Fin.ext (by
    match a with
    | ⟨0, _⟩ => exact (rhs_k _ _).trans hk
    | ⟨1, _⟩ => exact rhs_col _ _)
  rw [el, er]

/-! ## The two spreads -/

/-- A column of 4096 values spread along 512 columns reads, at (p, q), the column's entry p. -/
theorem spread_col (x : FVec Ideal S4096x1 .f32) (p : Fin 4096) (q : Fin 512) :
    broadcastTo S4096x512 x broadcasts_S4096x1_S4096x512 (ix2 p q) = x (ix2 p (0 : Fin 1)) :=
  broadcastTo_apply x broadcasts_S4096x1_S4096x512 (ix2 p q) (ix2 p (0 : Fin 1)) (fun a => match a with
    | ⟨0, _⟩ => by show p.val = if (4096 : Nat) = 1 then 0 else p.val; rw [if_neg (by decide)]
    | ⟨1, _⟩ => by show 0 = if (1 : Nat) = 1 then 0 else q.val; rw [if_pos rfl])

/-- A row of 512 values spread along 4096 rows reads, at (p, q), the row's entry q. -/
theorem spread_row (x : FVec Ideal S1x512 .f32) (p : Fin 4096) (q : Fin 512) :
    broadcastTo S4096x512 x broadcasts_S1x512_S4096x512 (ix2 p q) = x (ix2 (0 : Fin 1) q) :=
  broadcastTo_apply x broadcasts_S1x512_S4096x512 (ix2 p q) (ix2 (0 : Fin 1) q) (fun a => match a with
    | ⟨0, _⟩ => by show 0 = if (1 : Nat) = 1 then 0 else p.val; rw [if_pos rfl]
    | ⟨1, _⟩ => by show q.val = if (512 : Nat) = 1 then 0 else q.val; rw [if_neg (by decide)])

/-! ## The stored value at an entry -/

/-- The body's stored value at entry (p, q) of its block. -/
theorem pay_at (x0 : Vec Ideal S4096x512 .bf16) (x1 : Vec Ideal S512x512 .bf16) (x2 : Vec Ideal S4096x1 .f32) (x3 : Vec Ideal S1x512 .f32)
    (p : Fin 4096) (q : Fin 512) :
    k0_pay1 (F := Ideal) x0 x1 x2 x3 (ix2 p q)
      = (x2 (ix2 p (0 : Fin 1)) + x3 (ix2 (0 : Fin 1) q)) - Ideal.ofBits .f32 0x40000000#32 * ∑ k : Fin 512, x0 (ix2 p k) * x1 (ix2 k q) := by
  have hA : broadcastTo S4096x512 (shapeCast S4096x1 x2 shapeCasts_S4096x1_S4096x1) broadcasts_S4096x1_S4096x512 (ix2 p q) = x2 (ix2 p (0 : Fin 1)) :=
    (congrArg (fun v : FVec Ideal S4096x1 .f32 => broadcastTo S4096x512 v broadcasts_S4096x1_S4096x512 (ix2 p q)) (shapeCast_self x2 shapeCasts_S4096x1_S4096x1)).trans
      (spread_col x2 p q)
  have hB : broadcastTo S4096x512 (shapeCast S1x512 x3 shapeCasts_S1x512_S1x512) broadcasts_S1x512_S4096x512 (ix2 p q) = x3 (ix2 (0 : Fin 1) q) :=
    (congrArg (fun v : FVec Ideal S1x512 .f32 => broadcastTo S4096x512 v broadcasts_S1x512_S4096x512 (ix2 p q)) (shapeCast_self x3 shapeCasts_S1x512_S1x512)).trans
      (spread_row x3 p q)
  have hC : matmul (F := Ideal) dot_S4096x512_S512x512_S4096x512_1_0_0_1_n_n none (shapeCast S4096x512 x0 shapeCasts_S4096x512_S4096x512 : FVec Ideal S4096x512 .bf16)
        (shapeCast S512x512 x1 shapeCasts_S512x512_S512x512 : FVec Ideal S512x512 .bf16) (constant S4096x512 .f32 0x00000000#32) (ix2 p q)
      = ∑ k : Fin 512, x0 (ix2 p k) * x1 (ix2 k q) := by
    rw [shapeCast_self x0 shapeCasts_S4096x512_S4096x512, shapeCast_self x1 shapeCasts_S512x512_S512x512]
    exact matmul_at x0 x1 p q
  unfold k0_pay1
  show (_ + _) - (_ * _) = _
  rw [hA, hB, hC]
  rfl

end Cert.KernelIdeal.BodyValue

end
-- ==== Proof.Found.lean ====
/-
  What the kernel's one region finds in the four arrays its input windows read, entry by entry, as functions of the two
  argument arrays — the host operations before the region:

    * the first set, narrowed to half precision: at the extended reals the narrowing is the identity, so entry (a, k) is
      the first argument's (a, k);
    * the second set, narrowed and transposed: entry (k, b) is the second argument's (b, k);
    * the first set's squared lengths as a column: entry (a, 0) is the float zero plus the sum of the squares of point a;
    * the second set's squared lengths, as a column and then transposed to a row: entry (0, b) likewise of point b.
-/
import proofs.«140725_j20959440404484_2_alg».proof.Proof.Gen.KernelIdeal.Frame
import proofs.«140725_j20959440404484_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.Found

open Cert.KernelIdeal Cert.KernelIdeal.Gen Cert.PairDist
open Idealize.ShloMosaic Idealize.ShloMosaic.TcCoe Idealize.ShloMosaic.ValueIdx Idealize.SL.Sem Idealize.ShloMosaic.StableHlo

/-! ## A set's squared lengths, as the host sums them -/

/-- The host's sum along the coordinates of the squares of a set, at point `a`: the set's squared length there. -/
theorem rowSums_at (x : (⟨S8192x512, .f32⟩ : BufTy).Contents (Elt Ideal)) (a : Fin 8192) :
    Host.reduceAdd (F := Ideal) (mulf x x) (constant (F := Ideal) S_ .f32 0x00000000#32) reducesTo_S8192x512_S8192_d1 h_S_ (ix1 a)
      = sqNorm x a := by
  unfold sqNorm
  simp only [Host.reduceAdd, Ideal.hostReduceAdd_def]
  rw [Ideal.hostReduceAdd_single reducesTo_S8192x512_S8192_d1 (by decide)]
  refine congrArg (_ + ·) (Finset.sum_congr rfl fun k _ => ?_)
  have e : (Shape.Reduces.lift (by decide : S8192x512.Reduces [1] S8192) (ix1 a) k : S8192x512.Idx) = ix2 a k :=
    funext fun d => Fin.ext (by match d with | ⟨0, _⟩ => rfl | ⟨1, _⟩ => rfl)
  show x _ * x _ = _
  rw [e]
  rfl

/-- The lengths laid out as a column: entry (a, 0) is point `a`'s. -/
theorem column_at (y : (⟨S8192, .f32⟩ : BufTy).Contents (Elt Ideal)) (a : Fin 8192) :
    broadcastInDim S8192x1 ![0] bcast_S8192_S8192x1_0 y (ix2 a (0 : Fin 1)) = y (ix1 a) :=
  broadcastInDim_apply _ bcast_S8192_S8192x1_0 y (ix2 a (0 : Fin 1)) (ix1 a) (fun d => match d with
    | ⟨0, _⟩ => by show a.val = if (8192 : Nat) = 1 then 0 else a.val; rw [if_neg (by decide)])

variable (m : (ℓ : Loc nD τ sig) → Buf (Elt Ideal) ℓ)

/-! ## The four arrays -/

/-- The first window's array holds the first argument. -/
theorem rows_at (c : Dev nD) (a : Fin 8192) (k : Fin 512) :
    (V m c main_v7 : S8192x512.Idx → EReal) (ix2 a k) = m ((c : Thread nD τ).loc main_arg0) (ix2 a k) := by
  have e : @Eq (S8192x512.Idx → EReal) (V m c main_v7)
      (truncf .bf16 (m ((c : Thread nD τ).loc main_arg0) : FVec Ideal S8192x512 .f32) bitsLt_bf16_f32 : FVec Ideal S8192x512 .bf16) := by
    dsimp only [Gen.V, Gen.hostOps0]; after_results; try rfl
  rw [e]
  rfl

/-- The second window's array holds the second argument transposed. -/
theorem cols_at (c : Dev nD) (k : Fin 512) (b : Fin 8192) :
    (V m c main_v9 : S512x8192.Idx → EReal) (ix2 k b) = m ((c : Thread nD τ).loc main_arg1) (ix2 b k) := by
  have e : @Eq (S512x8192.Idx → EReal) (V m c main_v9)
      (transpose S512x8192 [1, 0] (truncf .bf16 (m ((c : Thread nD τ).loc main_arg1) : FVec Ideal S8192x512 .f32) bitsLt_bf16_f32 : FVec Ideal S8192x512 .bf16)
        transposes_S8192x512_S512x8192_1_0) := by
    dsimp only [Gen.V, Gen.hostOps0]; after_results; try rfl
  rw [e]
  exact transpose_apply [1, 0] _ transposes_S8192x512_S512x8192_1_0 (ix2 k b) (ix2 b k) (fun d => match d with
    | ⟨0, _⟩ => rfl
    | ⟨1, _⟩ => rfl)

/-- The third window's array holds the first set's squared lengths, as a column. -/
theorem rowLen_at (c : Dev nD) (a : Fin 8192) :
    (V m c main_v2 : S8192x1.Idx → EReal) (ix2 a (0 : Fin 1)) = sqNorm (m ((c : Thread nD τ).loc main_arg0)) a := by
  have e : (V m c main_v2 : S8192x1.Idx → EReal)
      = broadcastInDim S8192x1 ![0] bcast_S8192_S8192x1_0
          (Host.reduceAdd (F := Ideal) (mulf (m ((c : Thread nD τ).loc main_arg0)) (m ((c : Thread nD τ).loc main_arg0)))
            (constant (F := Ideal) S_ .f32 0x00000000#32) reducesTo_S8192x512_S8192_d1 h_S_) := by
    dsimp only [Gen.V, Gen.hostOps0]; after_results; try rfl
  rw [e, column_at]
  exact rowSums_at _ a

/-- The fourth window's array holds the second set's squared lengths, as a row. -/
theorem colLen_at (c : Dev nD) (b : Fin 8192) :
    (V m c main_v6 : S1x8192.Idx → EReal) (ix2 (0 : Fin 1) b) = sqNorm (m ((c : Thread nD τ).loc main_arg1)) b := by
  have e : (V m c main_v6 : S1x8192.Idx → EReal)
      = transpose S1x8192 [1, 0] (broadcastInDim S8192x1 ![0] bcast_S8192_S8192x1_0
          (Host.reduceAdd (F := Ideal) (mulf (m ((c : Thread nD τ).loc main_arg1)) (m ((c : Thread nD τ).loc main_arg1)))
            (constant (F := Ideal) S_ .f32 0x00000000#32) reducesTo_S8192x512_S8192_d1 h_S_)) transposes_S8192x1_S1x8192_1_0 := by
    dsimp only [Gen.V, Gen.hostOps0]; after_results; try rfl
  rw [e, transpose_apply [1, 0] _ transposes_S8192x1_S1x8192_1_0 (ix2 (0 : Fin 1) b) (ix2 b (0 : Fin 1)) (fun d => match d with
    | ⟨0, _⟩ => rfl
    | ⟨1, _⟩ => rfl), column_at]
  exact rowSums_at _ b

end Cert.KernelIdeal.Found

end
-- ==== Proof.Table.lean ====
/-
  The kernel's result array is the table of squared distances.

  The grid has 2 × 16 points. Point (I, J) reads rows [4096 I, 4096 I + 4096) of the first set (all 512 coordinates), columns
  [512 J, 512 J + 512) of the transposed second set, the matching 4096 squared lengths of the first set and 512 of the second,
  and writes the 4096 × 512 block (I, J) of the result. Entry (p, q) of what it writes is therefore the distance from point
  4096 I + p of the first set to point 512 J + q of the second: the block (I, J) of the whole table. The 32 blocks tile the
  8192 × 8192 table, so after the run the array IS the table.
-/
import proofs.«140725_j20959440404484_2_alg».proof.Proof.Gen.KernelIdeal.Value
import proofs.«140725_j20959440404484_2_alg».proof.Proof.Spec
import proofs.«140725_j20959440404484_2_alg».proof.Proof.Payload
import proofs.«140725_j20959440404484_2_alg».proof.Proof.Found

set_option maxRecDepth 16384

noncomputable section

open scoped BigOperators

namespace Cert.KernelIdeal.Table

open Cert.KernelIdeal Cert.KernelIdeal.Gen Cert.PairDist
open Idealize.ShloMosaic Idealize.ShloMosaic.TcCoe Idealize.ShloMosaic.ValueIdx Idealize.SL.Sem
open Idealize.ShloMosaic.Pipeline (Dat)

/-! ## One entry of a point's block, from the four input blocks -/

/-- If at entry `j` of the output block the four input blocks hold the coordinates of point `r` of the first set, the
    coordinates of point `b` of the second, and the two squared lengths, the body stores the distance from `r` to `b`. -/
theorem stored_eq_distAt (s t : Pts.Idx → EReal)
    (x0 : Vec Ideal S4096x512 .bf16) (x1 : Vec Ideal S512x512 .bf16) (x2 : Vec Ideal S4096x1 .f32) (x3 : Vec Ideal S1x512 .f32)
    (r b : Fin 8192) (j : S4096x512.Idx)
    (h0 : ∀ k : Fin 512, x0 (ix2 (j 0) k) = s (ix2 r k))
    (h1 : ∀ k : Fin 512, x1 (ix2 k (j 1)) = t (ix2 b k))
    (h2 : x2 (ix2 (j 0) (0 : Fin 1)) = sqNorm s r)
    (h3 : x3 (ix2 (0 : Fin 1) (j 1)) = sqNorm t b) :
    k0_pay1 (F := Ideal) x0 x1 x2 x3 j = distAt s t r b := by
  obtain ⟨p, q, rfl⟩ : ∃ (p : Fin 4096) (q : Fin 512), j = ix2 p q := ⟨j 0, j 1, eq_ix2 j⟩
  rw [BodyValue.pay_at x0 x1 x2 x3 p q]
  have h0' : ∀ k : Fin 512, x0 (ix2 p k) = s (ix2 r k) := h0
  have h1' : ∀ k : Fin 512, x1 (ix2 k q) = t (ix2 b k) := h1
  have h2' : x2 (ix2 p (0 : Fin 1)) = sqNorm s r := h2
  have h3' : x3 (ix2 (0 : Fin 1) q) = sqNorm t b := h3
  rw [h2', h3']
  unfold distAt PairDist.inner
  refine congrArg (fun z => (sqNorm s r + sqNorm t b) - Ideal.ofBits .f32 0x40000000#32 * z) (Finset.sum_congr rfl fun k _ => ?_)
  rw [h0' k, h1' k]

variable (m : (ℓ : Loc nD τ sig) → Buf (Elt Ideal) ℓ) (ρ : Dev nD → PrngReg)

/-! ## The index maps, over the grid -/

theorem zero_off : (![0, 0] : Fin 2 → Nat) = fun _ => 0 := funext fun a => by fin_cases a <;> rfl

/-- Over the 32 points: the first set's window and its lengths' window move with the output's rows and stay at column block 0;
    the second set's window and its lengths' window move with the output's columns and stay at row block 0; the output's
    block indices range over 2 × 16. -/
theorem index_maps : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 1 ∧ win0_4.index t (1 : Fin 2) ≤ 15 :=
  (by decide +kernel : ∀ t : Fin grid0.N, _)

/-- Every block of the 2 × 16 tiling is some point's. -/
theorem index_onto : ∀ (q0 : Fin 2) (q1 : Fin 16), ∃ t : Fin cfg0.N, win0_4.index t = ![q0.val, q1.val] :=
  (by decide +kernel : ∀ (q0 : Fin 2) (q1 : Fin 16), ∃ t : Fin grid0.N, win0_4.index t = ![q0.val, q1.val])

/-! ## The input blocks at a point, entry by entry -/

/-- The first window's block at point `t`, at entry `y`: the first argument at the row the block starts at plus `y`'s row. -/
theorem rows_blk (c : Dev nD) (t : Fin cfg0.N) (y : S4096x512.Idx) (a : Fin 8192) (k : Fin 512)
    (ha : win0_0.index t (0 : Fin 2) * 4096 + (y 0).val = a.val) (hk : win0_0.index t (1 : Fin 2) * 512 + (y 1).val = k.val) :
    iblk m c 0 t y = m ((c : Thread nD τ).loc main_arg0) (ix2 a k) := by
  show V m c main_v7 (((cfg0.win 0).blk t).view.emb y) = _
  have hemb : ((cfg0.win 0).blk t).view.emb y = ix2 a k := by
    funext d; apply Fin.ext
    match d with
    | ⟨0, _⟩ => show win0_0.index t (0 : Fin 2) * 4096 + 1 * (y 0).val = a.val; omega
    | ⟨1, _⟩ => show win0_0.index t (1 : Fin 2) * 512 + 1 * (y 1).val = k.val; omega
  rw [hemb]
  exact Found.rows_at m c a k

/-- The second window's block at point `t`, at entry `y`: the second argument, transposed. -/
theorem cols_blk (c : Dev nD) (t : Fin cfg0.N) (y : S512x512.Idx) (k : Fin 512) (b : Fin 8192)
    (hk : win0_1.index t (0 : Fin 2) * 512 + (y 0).val = k.val) (hb : win0_1.index t (1 : Fin 2) * 512 + (y 1).val = b.val) :
    iblk m c 1 t y = m ((c : Thread nD τ).loc main_arg1) (ix2 b k) := by
  show V m c main_v9 (((cfg0.win 1).blk t).view.emb y) = _
  have hemb : ((cfg0.win 1).blk t).view.emb y = ix2 k b := by
    funext d; apply Fin.ext
    match d with
    | ⟨0, _⟩ => show win0_1.index t (0 : Fin 2) * 512 + 1 * (y 0).val = k.val; omega
    | ⟨1, _⟩ => show win0_1.index t (1 : Fin 2) * 512 + 1 * (y 1).val = b.val; omega
  rw [hemb]
  exact Found.cols_at m c k b

/-- The third window's block at point `t`, at entry `y`: the first set's squared length at the block's row. -/
theorem rowLen_blk (c : Dev nD) (t : Fin cfg0.N) (y : S4096x1.Idx) (a : Fin 8192)
    (ha : win0_2.index t (0 : Fin 2) * 4096 + (y 0).val = a.val) (h0 : win0_2.index t (1 : Fin 2) = 0) :
    iblk m c 2 t y = sqNorm (m ((c : Thread nD τ).loc main_arg0)) a := by
  show V m c main_v2 (((cfg0.win 2).blk t).view.emb y) = _
  have hy : (y 1).val < 1 := (y 1).isLt
  have hemb : ((cfg0.win 2).blk t).view.emb y = ix2 a (0 : Fin 1) := by
    funext d; apply Fin.ext
    match d with
    | ⟨0, _⟩ => show win0_2.index t (0 : Fin 2) * 4096 + 1 * (y 0).val = a.val; omega
    | ⟨1, _⟩ => show win0_2.index t (1 : Fin 2) * 1 + 1 * (y 1).val = 0; omega
  rw [hemb]
  exact Found.rowLen_at m c a

/-- The fourth window's block at point `t`, at entry `y`: the second set's squared length at the block's column. -/
theorem colLen_blk (c : Dev nD) (t : Fin cfg0.N) (y : S1x512.Idx) (b : Fin 8192)
    (h0 : win0_3.index t (0 : Fin 2) = 0) (hb : win0_3.index t (1 : Fin 2) * 512 + (y 1).val = b.val) :
    iblk m c 3 t y = sqNorm (m ((c : Thread nD τ).loc main_arg1)) b := by
  show V m c main_v6 (((cfg0.win 3).blk t).view.emb y) = _
  have hy : (y 0).val < 1 := (y 0).isLt
  have hemb : ((cfg0.win 3).blk t).view.emb y = ix2 (0 : Fin 1) b := by
    funext d; apply Fin.ext
    match d with
    | ⟨0, _⟩ => show win0_3.index t (0 : Fin 2) * 1 + 1 * (y 0).val = 0; omega
    | ⟨1, _⟩ => show win0_3.index t (1 : Fin 2) * 512 + 1 * (y 1).val = b.val; omega
  rw [hemb]
  exact Found.colLen_at m c b

/-! ## What a point writes back -/

/-- WHAT POINT `t` WRITES BACK is block `t` of the table of distances between the two arguments. -/
theorem flushed_eq (c : Dev nD) (t : Fin cfg0.N) :
    (dats m 0 c).flushed 4 t
      = ((cfg0.win 4).blk t).view.read (Elt Ideal) (dist (m ((c : Thread nD τ).loc main_arg0)) (m ((c : Thread nD τ).loc main_arg1))) := by
  rw [Value.flushed4]
  unfold out0_4
  rw [View.canon_unit_zero zero_off]
  simp only [View.ld_unit_zero (S := S4096x512) zero_off, View.ld_unit_zero (S := S512x512) zero_off,
    View.ld_unit_zero (S := S4096x1) zero_off, View.ld_unit_zero (S := S1x512) zero_off]
  obtain ⟨e00, e01, e10, e11, e20, e21, e30, e31, b0, b1⟩ := index_maps t
  funext j
  have hj0 : (j 0).val < 4096 := (j 0).isLt
  have hj1 : (j 1).val < 512 := (j 1).isLt
  show k0_pay1 (F := Ideal) (iblk m c 0 t) (iblk m c 1 t) (iblk m c 2 t) (iblk m c 3 t) j
    = dist (m ((c : Thread nD τ).loc main_arg0)) (m ((c : Thread nD τ).loc main_arg1)) (((cfg0.win 4).blk t).view.emb j)
  have hemb : ((cfg0.win 4).blk t).view.emb j
      = ix2 (⟨win0_4.index t (0 : Fin 2) * 4096 + (j 0).val, by omega⟩ : Fin 8192) (⟨win0_4.index t (1 : Fin 2) * 512 + (j 1).val, by omega⟩ : Fin 8192) := by
    funext d; apply Fin.ext
    match d with
    | ⟨0, _⟩ => show win0_4.index t (0 : Fin 2) * 4096 + 1 * (j 0).val = win0_4.index t (0 : Fin 2) * 4096 + (j 0).val; omega
    | ⟨1, _⟩ => show win0_4.index t (1 : Fin 2) * 512 + 1 * (j 1).val = win0_4.index t (1 : Fin 2) * 512 + (j 1).val; omega
  rw [hemb, dist_ix2]
  exact stored_eq_distAt (m ((c : Thread nD τ).loc main_arg0)) (m ((c : Thread nD τ).loc main_arg1))
    (iblk m c 0 t) (iblk m c 1 t) (iblk m c 2 t) (iblk m c 3 t)
    ⟨win0_4.index t (0 : Fin 2) * 4096 + (j 0).val, by omega⟩ ⟨win0_4.index t (1 : Fin 2) * 512 + (j 1).val, by omega⟩ j
    (fun k => rows_blk m c t (ix2 (j 0) k) ⟨win0_4.index t (0 : Fin 2) * 4096 + (j 0).val, by omega⟩ k
      (by show win0_0.index t (0 : Fin 2) * 4096 + (j 0).val = win0_4.index t (0 : Fin 2) * 4096 + (j 0).val; omega)
      (by show win0_0.index t (1 : Fin 2) * 512 + k.val = k.val; omega))
    (fun k => cols_blk m c t (ix2 k (j 1)) k ⟨win0_4.index t (1 : Fin 2) * 512 + (j 1).val, by omega⟩
      (by show win0_1.index t (0 : Fin 2) * 512 + k.val = k.val; omega)
      (by show win0_1.index t (1 : Fin 2) * 512 + (j 1).val = win0_4.index t (1 : Fin 2) * 512 + (j 1).val; omega))
    (rowLen_blk m c t (ix2 (j 0) (0 : Fin 1)) ⟨win0_4.index t (0 : Fin 2) * 4096 + (j 0).val, by omega⟩
      (by show win0_2.index t (0 : Fin 2) * 4096 + (j 0).val = win0_4.index t (0 : Fin 2) * 4096 + (j 0).val; omega) e21)
    (colLen_blk m c t (ix2 (0 : Fin 1) (j 1)) ⟨win0_4.index t (1 : Fin 2) * 512 + (j 1).val, by omega⟩ e30
      (by show win0_3.index t (1 : Fin 2) * 512 + (j 1).val = win0_4.index t (1 : Fin 2) * 512 + (j 1).val; omega))

/-! ## The blocks tile the table -/

/-- An entry of the table is in point `t`'s block iff each coordinate is in the block's range on its axis. -/
theorem mem_blk (t : Fin cfg0.N) (i : S8192x8192.Idx) :
    i ∈ ((cfg0.win 4).blk t).view.set ↔ ∀ a : Fin 2, win0_4.index t a * S4096x512.size a ≤ (i a).val ∧ (i a).val < win0_4.index t a * S4096x512.size a + S4096x512.size a := by
  show i ∈ ((View.whole main_v10).slice (win0_4.rect t)).set ↔ _
  rw [View.set_slice_whole, Rect.mem_set_unit]
  exact Iff.rfl

/-- Every entry of the table is in the block of the point whose block indices are the entry's row over 4096 and column over 512. -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := index_onto ⟨(i 0).val / 4096, by omega⟩ ⟨(i 1).val / 512, by omega⟩
  have q0 : win0_4.index t (0 : Fin 2) = (i 0).val / 4096 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 512 ≤ (i 1).val ∧ (i 1).val < win0_4.index t (1 : Fin 2) * 512 + 512; omega

/-! ## The array after the run, and the run -/

/-- THE RESULT ARRAY after the run is the table of distances between the two arguments. -/
theorem final (c : Dev nD) :
    (dats m 0 c).arrAt 4 cfg0.N = dist (m ((c : Thread nD τ).loc main_arg0)) (m ((c : Thread nD τ).loc main_arg1)) :=
  (dats m 0 c).arrAt_eq_of_cover 4 (dist (m ((c : Thread nD τ).loc main_arg0)) (m ((c : Thread nD τ).loc main_arg1)))
    (fun t _ => flushed_eq m c t) cover

/-- Every weakly fair execution of the idealized kernel terminates with the result array at the table of distances between
    the two arguments, the arguments unchanged. -/
theorem run : θ_run defs (onTc (τ := τ) (main (F := Ideal))) ⟨m, fun _ => 0, ρ⟩ fun r => ∀ c : Dev nD,
      r.2.mem ((c : Thread nD τ).loc main_v10) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Table

end
-- ==== Proof.lean ====
/-
  Pairwise squared Euclidean distances between two sets of 8192 points of 512 coordinates: the kernel against its reference.

  Both programs compute, for every pair (a, b),

      (|s a|² + |t b|²) - 2 · ⟨s a, t b⟩        (|x|² = the float zero + the sum of the squares, ⟨·,·⟩ = the sum of the products),

  grouped the same way and with the same two literals. They differ in where the work is done — the kernel forms the table in
  32 blocks of 4096 × 512, each from a product of a block of the first set with a block of the transposed second set in half
  precision; the reference forms one contraction of the two sets in single precision — and on the extended reals a change of
  float format is the identity, a product accumulated into the zero block is the contraction itself, and the blocks tile the
  table. So the two results are equal entry by entry, by unfolding alone: no law of arithmetic is used, and the finiteness of
  the inputs is not needed.

  The pieces: `Proof/Spec.lean` states the table as one function `dist` of the two sets; `Proof/RefIsDist.lean` reads the
  reference's operations at an entry and finds `dist`; `Proof/Payload.lean` reads what the kernel's body stores at an entry of
  its block; `Proof/Found.lean` reads what the host operations before the kernel's region leave in the four arrays its windows
  read; `Proof/Table.lean` puts a point's four input blocks under the body's stored value, finds block `t` of `dist`, and
  covers the table with the 32 blocks. The three frames are the generated ones (the reference's is its generated run with the
  result dropped); the idealization rewrote nothing, so there is nothing for it to preserve.
-/
import proofs.«140725_j20959440404484_2_alg».proof.Defs
import proofs.«140725_j20959440404484_2_alg».proof.Proof.Gen.Kernel
import proofs.«140725_j20959440404484_2_alg».proof.Proof.Gen.Kernel.Skeleton
import proofs.«140725_j20959440404484_2_alg».proof.Proof.Gen.Kernel.Launch
import proofs.«140725_j20959440404484_2_alg».proof.Proof.Gen.Kernel.Points
import proofs.«140725_j20959440404484_2_alg».proof.Proof.Gen.Kernel.Frame
import proofs.«140725_j20959440404484_2_alg».proof.Proof.Gen.KernelIdeal
import proofs.«140725_j20959440404484_2_alg».proof.Proof.Gen.KernelIdeal.Skeleton
import proofs.«140725_j20959440404484_2_alg».proof.Proof.Gen.KernelIdeal.Launch
import proofs.«140725_j20959440404484_2_alg».proof.Proof.Gen.KernelIdeal.Points
import proofs.«140725_j20959440404484_2_alg».proof.Proof.Gen.KernelIdeal.Frame
import proofs.«140725_j20959440404484_2_alg».proof.Proof.Gen.ReferenceIdeal
import proofs.«140725_j20959440404484_2_alg».proof.Proof.Gen.Pre_finite_inputs
import proofs.«140725_j20959440404484_2_alg».proof.Proof.Gen.KernelIdeal.Value
import proofs.«140725_j20959440404484_2_alg».proof.Proof.Gen.ReferenceIdeal.Run
import proofs.«140725_j20959440404484_2_alg».proof.Proof.Gen.ReferenceIdeal.Read
import proofs.«140725_j20959440404484_2_alg».proof.Proof.Spec
import proofs.«140725_j20959440404484_2_alg».proof.Proof.RefIsDist
import proofs.«140725_j20959440404484_2_alg».proof.Proof.Table
import Idealize.ShloMosaic.Adequacy
import Idealize.ShloMosaic.Init

noncomputable section

namespace Cert.Proof

open Idealize.ShloMosaic Idealize.ShloMosaic.TcCoe Idealize.SL.Sem

/-- The kernel as printed runs, and leaves its two arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- On the extended reals, from memories that agree on the two point sets, the kernel's result array and the reference's
    both end at the table of squared distances between the two sets. -/
theorem algebraic : Cert.algebraic_KernelIdeal_ReferenceIdeal := by
  intro m ρ m' ρ' _ hagree
  refine ⟨fun c => Cert.PairDist.dist (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq_dist, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
